-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S1677722 : Shape := ⟨1, ![1677722]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1677722 : S_.BroadcastsInDim S1677722 (![] : Fin 0 → Fin S1677722.rank)
  reducesTo_S1677722_S_d0 : S1677722.ReducesTo [0] S_

variable [Facts]

def fn {F : FTy → Type} [FloatOps F] (main_arg0 : FVec F S2x2048x4096 .f32) (main_arg1 : FVec F S1677722 .f32) (main_arg2 : IVec S1677722 32) (main_arg3 : IVec S1677722 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1677722 .f32 := Host.absf main_arg1
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  main_v8
-- ==== Kernel.lean ====
abbrev S2x2048x4096 : Shape := ⟨3, ![2, 2048, 4096]⟩
abbrev S1677722 : Shape := ⟨1, ![1677722]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩
abbrev S1024x1024 : Shape := ⟨2, ![1024, 1024]⟩

abbrev nBuf : Space → Nat
  | .hbm => 29
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S1677722, .f32⟩
  | .hbm, ⟨2, _⟩ => ⟨S1677722, .i32⟩
  | .hbm, ⟨3, _⟩ => ⟨S1677722, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S1677722, .i32⟩
  | .hbm, ⟨8, _⟩ => ⟨S1677722, .i1⟩
  | .hbm, ⟨9, _⟩ => ⟨S_, .i32⟩
  | .hbm, ⟨10, _⟩ => ⟨S1677722, .i32⟩
  | .hbm, ⟨11, _⟩ => ⟨S1677722, .i32⟩
  | .hbm, ⟨12, _⟩ => ⟨S1677722, .i32⟩
  | .hbm, ⟨13, _⟩ => ⟨S_, .i32⟩
  | .hbm, ⟨14, _⟩ => ⟨S1677722, .i32⟩
  | .hbm, ⟨15, _⟩ => ⟨S1677722, .i1⟩
  | .hbm, ⟨16, _⟩ => ⟨S_, .i32⟩
  | .hbm, ⟨17, _⟩ => ⟨S1677722, .i32⟩
  | .hbm, ⟨18, _⟩ => ⟨S1677722, .i32⟩
  | .hbm, ⟨19, _⟩ => ⟨S1677722, .i32⟩
  | .hbm, ⟨20, _⟩ => ⟨S1677722x1, .i32⟩
  | .hbm, ⟨21, _⟩ => ⟨S1677722x1, .i32⟩
  | .hbm, ⟨22, _⟩ => ⟨S1677722x2, .i32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x4096, .bf16⟩
  | .hbm, ⟨27, _⟩ => ⟨S4096x4096, .f32⟩
  | .hbm, ⟨28, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  shapeCasts_S2x2048x4096_S4096x4096 : S2x2048x4096.ShapeCasts S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  scatter_S4096x4096_S1677722x2_S1677722_n_01_01_1_wf : ScatterDims.WF S4096x4096 S1677722x2 S1677722 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S1677722 : Shape := ⟨1, ![1677722]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1677722, .f32⟩
  | .hbm, ⟨2, _⟩ => ⟨S1677722, .i32⟩
  | .hbm, ⟨3, _⟩ => ⟨S1677722, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S1677722, .i32⟩
  | .hbm, ⟨8, _⟩ => ⟨S1677722, .i1⟩
  | .hbm, ⟨9, _⟩ => ⟨S_, .i32⟩
  | .hbm, ⟨10, _⟩ => ⟨S1677722, .i32⟩
  | .hbm, ⟨11, _⟩ => ⟨S1677722, .i32⟩
  | .hbm, ⟨12, _⟩ => ⟨S1677722, .i32⟩
  | .hbm, ⟨13, _⟩ => ⟨S_, .i32⟩
  | .hbm, ⟨14, _⟩ => ⟨S1677722, .i32⟩
  | .hbm, ⟨15, _⟩ => ⟨S1677722, .i1⟩
  | .hbm, ⟨16, _⟩ => ⟨S_, .i32⟩
  | .hbm, ⟨17, _⟩ => ⟨S1677722, .i32⟩
  | .hbm, ⟨18, _⟩ => ⟨S1677722, .i32⟩
  | .hbm, ⟨19, _⟩ => ⟨S1677722, .i32⟩
  | .hbm, ⟨20, _⟩ => ⟨S1677722x1, .i32⟩
  | .hbm, ⟨21, _⟩ => ⟨S1677722x1, .i32⟩
  | .hbm, ⟨22, _⟩ => ⟨S1677722x2, .i32⟩
  | .hbm, ⟨23, _⟩ => ⟨S4096x4096, .f32⟩
  | .hbm, ⟨24, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  scatter_S4096x4096_S1677722x2_S1677722_n_01_01_1_wf : ScatterDims.WF S4096x4096 S1677722x2 S1677722 [] [0, 1] [0, 1] 1
  dot_S2x2048x4096_S4096x4096_S2x2048x4096_2_1_01_0_n_n_wf : DotDims.WF S2x2048x4096 S4096x4096 S2x2048x4096 [2] [1] [0, 1] [0] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Body.lean ====
/-
  What one run of the kernel body leaves behind, for any float instance.

  The body keeps a 1024 × 1024 accumulator.  At the first of the four steps along the contracted axis it stores a
  zero block into it; at every step it loads the accumulator, adds the product of the two input blocks and stores the
  sum back; at the last step it copies the accumulator into the output block.  So, writing `step a x w` for
  "`a` plus the product of `x` and `w`" (the body's second stored value as a function of what it loaded), the
  accumulator ends a first step at `step zero x w`, any later step at `step acc x w` of what the step before
  left, and the output block after a last step holds that same value.
-/
import proofs.«158338_j3246995276086_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A middle step: the accumulator, found at `acc`, is left at `acc` plus the product of the input blocks. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x w : Vec F S1024x1024 .bf16) (acc : Vec F S1024x1024 .f32) :
    sout0_B_0 c i a3 h3 a4 h4 a5 h5 a6 h6 hc0 hc1 x w acc = k0_pay2 acc x w := by
  unfold sout0_B_0
  rw [View.read_writes_eq_canon _ _ _ (scover0_B_0 c i a3 h3 a4 h4 a5 h5 a6 h6 hc0 hc1 x w acc)]
  unfold kernelRun0_B
  dsimp only
  rw [View.canon_unit_zero hz]
  simp only [View.readAt_eq_ld, h3.read_unread, h4.read_unread, h6.read_unread, View.ld_unit_zero (S := S1024x1024) hz]

/-- A first step: the accumulator is zeroed, read back, and left at zero plus the product of the input blocks. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x w : Vec F S1024x1024 .bf16) :
    sout0_A_0 c i a3 h3 a4 h4 a5 h5 a6 h6 hc0 hc1 x w = k0_pay2 k0_pay1 x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A last step leaves the accumulator as a middle step does, -/
theorem scratch_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x w : Vec F S1024x1024 .bf16) (acc : Vec F S1024x1024 .f32) :
    sout0_C_0 c i a3 h3 a4 h4 a5 h5 a6 h6 hc0 hc1 x w acc = k0_pay2 acc x w := by
  unfold sout0_C_0
  rw [View.read_writes_eq_canon _ _ _ (scover0_C_0 c i a3 h3 a4 h4 a5 h5 a6 h6 hc0 hc1 x w acc)]
  unfold kernelRun0_C
  dsimp only
  sl_unfold_words
  rw [View.canon_unit_zero hz]
  simp only [View.readAt_eq_ld, h3.read_unread, h4.read_unread, h6.read_unread, View.ld_unit_zero (S := S1024x1024) hz]

/-- and copies it, read back after that store, into the output block. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x w : Vec F S1024x1024 .bf16) (acc : Vec F S1024x1024 .f32) :
    out0_C_2 c i a3 h3 a4 h4 a5 h5 a6 h6 hc0 hc1 x w acc = k0_pay2 acc x w := by
  unfold out0_C_2
  rw [View.read_writes_eq_canon _ _ _ (cover0_C_2 c i a3 h3 a4 h4 a5 h5 a6 h6 hc0 hc1 x w acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Body

end
-- ==== Proof.Chain.lean ====
/-
  The accumulator over a group of four grid points, for any float instance.

  The grid's 64 points run in groups of four along the contracted axis (the innermost one): points 4g, 4g+1, 4g+2,
  4g+3 work on one output block.  The first zeroes the accumulator and adds its block product, the next ones add
  theirs onto what the point before left, and the last one also copies the accumulator into the output block.  So
  the output block written at point n + 3 (n a multiple of 4) is four steps onto the zero block, taken at the input
  blocks of points n, n + 1, n + 2, n + 3 in that order.
-/
import proofs.«158338_j3246995276086_1_alg».proof.Proof.Body

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- After a group's first point the accumulator holds one step onto the zero block. -/
theorem acc_first (c : Dev nD) (n : ℕ) (h : n < cfg0.N) (h0 : n % 4 = 0) :
    (outsAt0 m c n h).2 = k0_pay2 k0_pay1 (iblk m c 0 ⟨n, h⟩) (iblk m c 1 ⟨n, h⟩) := by
  have h1 : ¬n % 4 = 3 := by omega
  rw [show outsAt0 m c n h = _ from outsAt0_A m c ⟨n, h⟩ h0 h1]
  dsimp only
  exact Body.scratch_A c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) scM0_0 (Memref.isWhole_whole _) _ _ (iblk m c 0 ⟨n, h⟩) (iblk m c 1 ⟨n, h⟩)

/-- After any other point it holds one step onto what the point before left. -/
theorem acc_next (c : Dev nD) (n : ℕ) (h : n + 1 < cfg0.N) (h0 : ¬(n + 1) % 4 = 0) :
    (outsAt0 m c (n + 1) h).2
      = k0_pay2 (outsAt0 m c n (Nat.lt_of_succ_lt h)).2 (iblk m c 0 ⟨n + 1, h⟩) (iblk m c 1 ⟨n + 1, h⟩) := by
  by_cases h1 : (n + 1) % 4 = 3
  · rw [show outsAt0 m c (n + 1) h = _ from outsAt0_C m c ⟨n + 1, h⟩ h0 h1]
    dsimp only
    exact Body.scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2
  · rw [show outsAt0 m c (n + 1) h = _ from outsAt0_B m c ⟨n + 1, h⟩ h0 h1]
    dsimp only
    exact Body.scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2

/-- A group's last point leaves that same value in the output block. -/
theorem out_last (c : Dev nD) (n : ℕ) (h : n + 1 < cfg0.N) (h3 : (n + 1) % 4 = 3) :
    (outsAt0 m c (n + 1) h).1
      = k0_pay2 (outsAt0 m c n (Nat.lt_of_succ_lt h)).2 (iblk m c 0 ⟨n + 1, h⟩) (iblk m c 1 ⟨n + 1, h⟩) := by
  have h0 : ¬(n + 1) % 4 = 0 := by omega
  rw [show outsAt0 m c (n + 1) h = _ from outsAt0_C m c ⟨n + 1, h⟩ h0 h3]
  dsimp only
  exact Body.out_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) _ _ (iblk m c 0 ⟨n + 1, h⟩) (iblk m c 1 ⟨n + 1, h⟩)
      (outsAt0 m c n (Nat.lt_of_succ_lt h)).2

/-- The output block written at the end of a group: four steps onto the zero block, in the points' order. -/
theorem out_group (c : Dev nD) (n : ℕ) (h : n + 3 < cfg0.N) (h0 : n % 4 = 0) :
    (outsAt0 m c (n + 3) h).1
      = k0_pay2 (k0_pay2 (k0_pay2 (k0_pay2 k0_pay1
            (iblk m c 0 ⟨n, by omega⟩) (iblk m c 1 ⟨n, by omega⟩))
            (iblk m c 0 ⟨n + 1, by omega⟩) (iblk m c 1 ⟨n + 1, by omega⟩))
            (iblk m c 0 ⟨n + 2, by omega⟩) (iblk m c 1 ⟨n + 2, by omega⟩))
            (iblk m c 0 ⟨n + 3, h⟩) (iblk m c 1 ⟨n + 3, h⟩) := by
  rw [out_last m c (n + 2) h (by omega), acc_next m c (n + 1) (by omega) (by omega),
    acc_next m c n (by omega) (by omega), acc_first m c n (by omega) h0]

end Cert.KernelIdeal.Chain

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Step.lean ====
/-
  One accumulation step read at an entry, on the extended reals.

  The value a step stores is "the accumulator plus the product of the two input blocks", the product being the matrix
  unit's contraction of the second axis of both 1024 × 1024 blocks into a zero accumulator.  Read exactly, entry
  (p, q) of it is  acc(p, q) + ∑ᵣ x(p, r) · w(q, r),  and the block the first step starts from is zero everywhere.
-/
import proofs.«158338_j3246995276086_1_alg».proof.Proof.Gen.KernelIdeal.Skeleton
import proofs.«158338_j3246995276086_1_alg».proof.Proof.LibMatmul
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Step

open Cert.KernelIdeal Cert.KernelIdeal.Gen

/-- The block the first step adds onto is zero at every entry. -/
theorem zero_apply (j : S1024x1024.Idx) : k0_pay1 (F := Ideal) j = 0 := by
  unfold k0_pay1
  simp only [shapeCast_self]
  exact Ideal.ofBits_zero_f32

/-- Entry (p, q) after a step: the accumulator's entry plus the contraction of row p of `x` with row q of `w`. -/
theorem step_apply (a : Vec Ideal S1024x1024 .f32) (x w : Vec Ideal S1024x1024 .bf16) (p q : Fin 1024) :
    k0_pay2 (F := Ideal) a x w (ix2 p q) = a (ix2 p q) + ∑ r : Fin 1024, x (ix2 p r) * w (ix2 q r) := by
  unfold k0_pay2
  simp only [shapeCast_self]
  exact congrArg (a (ix2 p q) + ·)
    (Cert.MatmulAt.matmul_zero_nt_apply Facts₀.dot_S1024x1024_S1024x1024_S1024x1024_1_1_0_0_n_n_wf none x w p q)

end Cert.KernelIdeal.Step

end
-- ==== Proof.Spec.lean ====
/-
  The mathematics of the certificate, with no program in sight.

  Both programs compute  y[b, s, o] = ∑ₙ x[b, s, n] · W[o, n]  over n < 4096, for a dense 4096 × 4096 matrix W.
  The reference takes the sum in one go.  The kernel views x as a 4096 × 4096 matrix (row 2048·b + s), cuts the
  contracted axis into four blocks of 1024 and adds the four block products, in order, onto a zero:
      (((0 + P₀) + P₁) + P₂) + P₃,   Pₖ = ∑ᵣ x[·, 1024·k + r] · W[·, 1024·k + r].
  On the extended reals addition is commutative and associative and 0 is neutral, so this is the same sum: no
  distributivity, hence no finiteness, is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Position `r` of block `k` on an axis of extent 4096 cut into four blocks of 1024. -/
def bpos (k : Fin 4) (r : Fin 1024) : Fin 4096 := ⟨k.val * 1024 + r.val, by omega⟩

theorem bpos_val (k : Fin 4) (r : Fin 1024) : (bpos k r).val = k.val * 1024 + r.val := rfl

/-- A sum over the 4096 positions is the sum of the four block sums. -/
theorem sum_blocks {M : Type*} [AddCommMonoid M] (f : Fin 4096 → M) :
    ∑ n : Fin 4096, f n = ∑ k : Fin 4, ∑ r : Fin 1024, f (bpos k r) := by
  rw [← Equiv.sum_comp (finProdFinEquiv (m := 4) (n := 1024)) f, Fintype.sum_prod_type]
  refine Finset.sum_congr rfl fun k _ => Finset.sum_congr rfl fun r _ => congrArg f (Fin.ext ?_)
  show r.val + 1024 * k.val = k.val * 1024 + r.val
  omega

/-- Four terms added in order onto zero are their sum. -/
theorem chain_four {M : Type*} [AddCommMonoid M] (g : Fin 4 → M) :
    0 + g 0 + g 1 + g 2 + g 3 = ∑ k : Fin 4, g k := by
  rw [Fin.sum_univ_four, zero_add]

/-- The result as one function of the activations `x` (batch, position, feature) and the dense matrix `W`
    (output feature, input feature): `y[b, s, o] = ∑ₙ x[b, s, n] · W[o, n]`. -/
def G (x : (⟨3, ![2, 2048, 4096]⟩ : Shape).Idx → EReal) (W : (⟨2, ![4096, 4096]⟩ : Shape).Idx → EReal) :
    (⟨3, ![2, 2048, 4096]⟩ : Shape).Idx → EReal :=
  fun i => ∑ n : Fin 4096, x (ix3 (i 0) (i 1) n) * W (ix2 (i 2) n)

/-- The same with `x` flattened to a matrix `X` (row `2048·b + s`): entry `(p, q)` of `X · Wᵀ`. -/
def G2 (X W : (⟨2, ![4096, 4096]⟩ : Shape).Idx → EReal) : (⟨2, ![4096, 4096]⟩ : Shape).Idx → EReal :=
  fun j => ∑ n : Fin 4096, X (ix2 (j 0) n) * W (ix2 (j 1) n)

/-- The kernel's arrangement of entry `(p, q)`: the four block products added in order onto zero. -/
theorem blocks_eq_G2 (X W : (⟨2, ![4096, 4096]⟩ : Shape).Idx → EReal) (p q : Fin 4096) :
    0 + (∑ r : Fin 1024, X (ix2 p (bpos 0 r)) * W (ix2 q (bpos 0 r)))
      + (∑ r : Fin 1024, X (ix2 p (bpos 1 r)) * W (ix2 q (bpos 1 r)))
      + (∑ r : Fin 1024, X (ix2 p (bpos 2 r)) * W (ix2 q (bpos 2 r)))
      + (∑ r : Fin 1024, X (ix2 p (bpos 3 r)) * W (ix2 q (bpos 3 r)))
    = G2 X W (ix2 p q) := by
  rw [chain_four (fun k => ∑ r : Fin 1024, X (ix2 p (bpos k r)) * W (ix2 q (bpos k r)))]
  exact (sum_blocks (fun n => X (ix2 p n) * W (ix2 q n))).symm

/-- Entry `(row, o)` of the flattened product is entry `(b, s, o)` of the result, when row `row` of the flattened
    activations is `x[b, s, ·]` (and the right matrix is read through an entrywise-equal copy). -/
theorem G2_eq_G (x : (⟨3, ![2, 2048, 4096]⟩ : Shape).Idx → EReal) (X W W' : (⟨2, ![4096, 4096]⟩ : Shape).Idx → EReal)
    (b : Fin 2) (s : Fin 2048) (o row : Fin 4096) (hX : ∀ n : Fin 4096, X (ix2 row n) = x (ix3 b s n))
    (hW : ∀ n : Fin 4096, W (ix2 o n) = W' (ix2 o n)) :
    G2 X W (ix2 row o) = G x W' (ix3 b s o) := by
  show (∑ n : Fin 4096, X (ix2 row n) * W (ix2 o n)) = ∑ n : Fin 4096, x (ix3 b s n) * W' (ix2 o n)
  exact Finset.sum_congr rfl fun n _ => by rw [hX n, hW n]

end Cert.Spec

end
-- ==== Proof.Blocks.lean ====
/-
  Which entries of the two matrices a grid point's input blocks hold.

  Point t of the 64 works on row block t / 16 of the left matrix, row block (t / 4) mod 4 of the right matrix, and
  on both takes column block t mod 4 (the contracted axis runs innermost); its output block is
  (t / 16, (t / 4) mod 4).  A block's entry (p, r) is therefore the matrix's entry
  (1024 · row block + p, 1024 · column block + r).
-/
import proofs.«158338_j3246995276086_1_alg».proof.Proof.Gen.KernelIdeal.Frame
import proofs.«158338_j3246995276086_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Spec

variable {F : FTy → Type} [FloatOps F]
variable (m : (ℓ : Loc nD τ sig) → Buf (Elt F) ℓ)

/-- The three windows' block indices at every grid point, decided over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The left matrix's block at point `t`: rows of block `t / 16`, columns of block `t mod 4`. -/
theorem lhs_block (c : Dev nD) (t : Fin cfg0.N) (I K : Fin 4) (hI : I.val = t.val / 16) (hK : K.val = t.val % 4)
    (p r : Fin 1024) :
    (iblk m c 0 t : Vec F S1024x1024 .bf16) (ix2 p r) = V m c main_v16 (ix2 (bpos I p) (bpos K r)) := by
  obtain ⟨e0, e1, -, -, -, -⟩ := idx_facts t
  unfold iblk
  rw [View.read_apply]
  show V m c main_v16 _ = V m c main_v16 _
  congr 1
  funext a
  apply Fin.ext
  match a with
  | ⟨0, _⟩ => show win0_0.index t (0 : Fin 2) * 1024 + 1 * p.val = I.val * 1024 + p.val; rw [e0, hI]; omega
  | ⟨1, _⟩ => show win0_0.index t (1 : Fin 2) * 1024 + 1 * r.val = K.val * 1024 + r.val; rw [e1, hK]; omega

/-- The right matrix's block at point `t`: rows of block `(t / 4) mod 4`, columns of block `t mod 4`. -/
theorem rhs_block (c : Dev nD) (t : Fin cfg0.N) (J K : Fin 4) (hJ : J.val = t.val / 4 % 4) (hK : K.val = t.val % 4)
    (q r : Fin 1024) :
    (iblk m c 1 t : Vec F S1024x1024 .bf16) (ix2 q r) = V m c main_v17 (ix2 (bpos J q) (bpos K r)) := by
  obtain ⟨-, -, e2, e3, -, -⟩ := idx_facts t
  unfold iblk
  rw [View.read_apply]
  show V m c main_v17 _ = V m c main_v17 _
  congr 1
  funext a
  apply Fin.ext
  match a with
  | ⟨0, _⟩ => show win0_1.index t (0 : Fin 2) * 1024 + 1 * q.val = J.val * 1024 + q.val; rw [e2, hJ]; omega
  | ⟨1, _⟩ => show win0_1.index t (1 : Fin 2) * 1024 + 1 * r.val = K.val * 1024 + r.val; rw [e3, hK]; omega

end Cert.KernelIdeal.Blocks

end
-- ==== Proof.Product.lean ====
/-
  The block a group of four points writes back is a block of the product matrix, on the extended reals.

  With X the left operand and W the right operand as the region finds them, the product matrix is
  P(a, b) = ∑ₙ X(a, n) · W(b, n).  The group of points n, n+1, n+2, n+3 (n a multiple of 4) works on output block
  (n / 16, (n / 4) mod 4); its four steps add, onto zero, the four partial contractions over the column blocks
  0, 1, 2, 3, and those add up to the whole contraction.
-/
import proofs.«158338_j3246995276086_1_alg».proof.Proof.Chain
import proofs.«158338_j3246995276086_1_alg».proof.Proof.Step
import proofs.«158338_j3246995276086_1_alg».proof.Proof.Blocks
import proofs.«158338_j3246995276086_1_alg».proof.Proof.Spec

noncomputable section

open Idealize.ShloMosaic Idealize.ShloMosaic.TcCoe Idealize.SL.Sem Idealize.ShloMosaic.ValueIdx

namespace Cert.KernelIdeal.Product

open Cert.KernelIdeal Cert.KernelIdeal.Gen Cert.Spec

/-- Four steps onto the zero block, read at an entry: zero plus the four contractions, in order. -/
theorem four_steps (x0 w0 x1 w1 x2 w2 x3 w3 : Vec Ideal S1024x1024 .bf16) (p q : Fin 1024) :
    k0_pay2 (F := Ideal) (k0_pay2 (k0_pay2 (k0_pay2 k0_pay1 x0 w0) x1 w1) x2 w2) x3 w3 (ix2 p q)
      = 0 + (∑ r : Fin 1024, x0 (ix2 p r) * w0 (ix2 q r)) + (∑ r : Fin 1024, x1 (ix2 p r) * w1 (ix2 q r))
          + (∑ r : Fin 1024, x2 (ix2 p r) * w2 (ix2 q r)) + (∑ r : Fin 1024, x3 (ix2 p r) * w3 (ix2 q r)) := by
  rw [Step.step_apply, Step.step_apply, Step.step_apply, Step.step_apply, Step.zero_apply]

variable (m : (ℓ : Loc nD τ sig) → Buf (Elt Ideal) ℓ)

/-- The product matrix of the two operands as the region finds them. -/
abbrev prod (c : Dev nD) : S4096x4096.Idx → EReal := Spec.G2 (V m c main_v16) (V m c main_v17)

/-- One point's contraction of its two blocks is the contraction of the matrices over that point's column block. -/
theorem block_product (c : Dev nD) (t : Fin cfg0.N) (I J K : Fin 4) (hI : I.val = t.val / 16)
    (hJ : J.val = t.val / 4 % 4) (hK : K.val = t.val % 4) (p q : Fin 1024)
    (x w : Vec Ideal S1024x1024 .bf16) (hx : x = iblk m c 0 t) (hw : w = iblk m c 1 t)
    (X W : S4096x4096.Idx → EReal) (hX : X = V m c main_v16) (hW : W = V m c main_v17) :
    (∑ r : Fin 1024, x (ix2 p r) * w (ix2 q r))
      = ∑ r : Fin 1024, X (ix2 (bpos I p) (bpos K r)) * W (ix2 (bpos J q) (bpos K r)) := by
  subst hx hw hX hW
  refine Finset.sum_congr rfl fun r _ => ?_
  rw [Blocks.lhs_block m c t I K hI hK p r, Blocks.rhs_block m c t J K hJ hK q r]

/-- Entry (p, q) of the block written at the end of the group starting at point `n` is the product matrix's entry
    in row block `n / 16`, column block `(n / 4) mod 4`. -/
theorem group_entry (c : Dev nD) (n : ℕ) (h : n + 3 < cfg0.N) (h0 : n % 4 = 0) (I J : Fin 4)
    (hI : I.val = n / 16) (hJ : J.val = n / 4 % 4) (p q : Fin 1024) :
    (outsAt0 m c (n + 3) h).1 (ix2 p q) = prod m c (ix2 (bpos I p) (bpos J q)) := by
  have hN : cfg0.N = 64 := N_0
  have g0 : n < cfg0.N := by omega
  have g1 : n + 1 < cfg0.N := by omega
  have g2 : n + 2 < cfg0.N := by omega
  rw [Chain.out_group m c n h h0]
  refine (four_steps (iblk m c 0 ⟨n, g0⟩) (iblk m c 1 ⟨n, g0⟩) (iblk m c 0 ⟨n + 1, g1⟩) (iblk m c 1 ⟨n + 1, g1⟩)
    (iblk m c 0 ⟨n + 2, g2⟩) (iblk m c 1 ⟨n + 2, g2⟩) (iblk m c 0 ⟨n + 3, h⟩) (iblk m c 1 ⟨n + 3, h⟩) p q).trans ?_
  rw [block_product m c ⟨n, g0⟩ I J 0 (by show I.val = n / 16; omega) (by show J.val = n / 4 % 4; omega) (by show 0 = n % 4; omega) p q
      (iblk m c 0 ⟨n, g0⟩) (iblk m c 1 ⟨n, g0⟩) rfl rfl (V m c main_v16) (V m c main_v17) rfl rfl,
    block_product m c ⟨n + 1, g1⟩ I J 1 (by show I.val = (n + 1) / 16; omega) (by show J.val = (n + 1) / 4 % 4; omega) (by show 1 = (n + 1) % 4; omega) p q
      (iblk m c 0 ⟨n + 1, g1⟩) (iblk m c 1 ⟨n + 1, g1⟩) rfl rfl (V m c main_v16) (V m c main_v17) rfl rfl,
    block_product m c ⟨n + 2, g2⟩ I J 2 (by show I.val = (n + 2) / 16; omega) (by show J.val = (n + 2) / 4 % 4; omega) (by show 2 = (n + 2) % 4; omega) p q
      (iblk m c 0 ⟨n + 2, g2⟩) (iblk m c 1 ⟨n + 2, g2⟩) rfl rfl (V m c main_v16) (V m c main_v17) rfl rfl,
    block_product m c ⟨n + 3, h⟩ I J 3 (by show I.val = (n + 3) / 16; omega) (by show J.val = (n + 3) / 4 % 4; omega) (by show 3 = (n + 3) % 4; omega) p q
      (iblk m c 0 ⟨n + 3, h⟩) (iblk m c 1 ⟨n + 3, h⟩) rfl rfl (V m c main_v16) (V m c main_v17) rfl rfl]
  exact blocks_eq_G2 (V m c main_v16) (V m c main_v17) (bpos I p) (bpos J q)

end Cert.KernelIdeal.Product

end
-- ==== Proof.Arrays.lean ====
/-
  What the region finds in its two operand arrays, on the extended reals.

  Before the region the host builds the dense matrix W (a scatter-add of the values into a zero matrix at the given
  row and column indices), flattens the activations x from [2, 2048, 4096] to [4096, 4096], and converts both to
  bf16.  Read exactly, a conversion of float format changes nothing, so the left operand is the flattened x and the
  right operand is W itself; and W is, term for term, the matrix the reference builds from the same three arrays.
-/
import proofs.«158338_j3246995276086_1_alg».proof.Proof.Gen.KernelIdeal.Frame
import proofs.«158338_j3246995276086_1_alg».proof.Proof.Gen.ReferenceIdeal.Read
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo
open Idealize.ShloMosaic.ValueIdx

namespace Cert.KernelIdeal.Arrays

open Cert.KernelIdeal Cert.KernelIdeal.Gen

variable (m : (ℓ : Loc nD τ sig) → Buf (Elt Ideal) ℓ)

/-- The left operand is the activations reshaped to a matrix (then converted, which is the identity). -/
theorem lhs_eq (c : Dev nD) : V m c main_v16
    = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_v16) = _
  after_results <;> rfl

set_option maxHeartbeats 2000000 in
/-- The right operand is the dense matrix (converted, which is the identity). -/
theorem rhs_eq (c : Dev nD) : V m c main_v17 = truncf (F := Ideal) .bf16 (V m c main_v14) bitsLt_bf16_f32 := by
  show StableHlo.after hostOps0 (fun b => m (c, b)) (Proc.devRef .tc main_v17)
    = truncf (F := Ideal) .bf16 (StableHlo.after hostOps0 (fun b => m (c, b)) (Proc.devRef .tc main_v14)) bitsLt_bf16_f32
  after_results <;> rfl

set_option maxHeartbeats 2000000 in
/-- The dense matrix is the reference's: the same scatter-add of the same values at the same indices into zeros. -/
theorem dense_eq (c : Dev nD) : V m c main_v14
    = Cert.ReferenceIdeal.Read.val_main_v14 (F := Ideal) (m ((c : Thread nD τ).loc main_arg1))
        (m ((c : Thread nD τ).loc main_arg2)) (m ((c : Thread nD τ).loc main_arg3)) := by
  show StableHlo.after hostOps0 (fun b => m (c, b)) (Proc.devRef .tc main_v14) = _
  after_results <;> rfl

/-- Row `2048·b + s` of the flattened activations. -/
def row (b : Fin 2) (s : Fin 2048) : Fin 4096 := ⟨b.val * 2048 + s.val, by omega⟩

/-- The left operand at row `2048·b + s`, column `n`, is `x[b, s, n]`. -/
theorem lhs_apply (c : Dev nD) (b : Fin 2) (s : Fin 2048) (n : Fin 4096) :
    V m c main_v16 (ix2 (row b s) n) = m ((c : Thread nD τ).loc main_arg0) (ix3 b s n) := by
  rw [lhs_eq]
  show shapeCast S4096x4096 (m ((c : Thread nD τ).loc main_arg0)) shapeCasts_S2x2048x4096_S4096x4096 (ix2 (row b s) n) = _
  refine shapeCast_apply _ _ _ (ix3 b s n) ?_
  rw [Shape.rowMajor_val_two, Shape.rowMajor_val_three]
  show (b.val * 2048 + s.val) * 4096 + n.val = (b.val * 2048 + s.val) * 4096 + n.val
  rfl

/-- The right operand is the dense matrix, entry by entry. -/
theorem rhs_apply (c : Dev nD) (j : S4096x4096.Idx) : V m c main_v17 j = V m c main_v14 j := by
  rw [rhs_eq]
  rfl

end Cert.KernelIdeal.Arrays

end
-- ==== Proof.Result.lean ====
/-
  The result array, on the extended reals.

  Each group of four grid points writes one 1024 × 1024 block of the product matrix back; the 16 groups' blocks tile
  the 4096 × 4096 array, so after the region the array holds the product matrix P(a, b) = ∑ₙ X(a, n) · W(b, n).
  After the region the host only reshapes it to [2, 2048, 4096]: entry (b, s, o) of the result is
  P(2048·b + s, o) = ∑ₙ x[b, s, n] · W[o, n].
-/
import proofs.«158338_j3246995276086_1_alg».proof.Proof.Product
import proofs.«158338_j3246995276086_1_alg».proof.Proof.Arrays
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Result

open Cert.KernelIdeal Cert.KernelIdeal.Gen Cert.Spec

variable (m : (ℓ : Loc nD τ sig) → Buf (Elt Ideal) ℓ) (ρ : Dev nD → PrngReg)

/-- The block left in the output's buffer at a group's last point `t`, as one function of the block index. -/
theorem last_block (c : Dev nD) (t : Fin cfg0.N) (h3 : t.val % 4 = 3) (I J : Fin 4)
    (hI : I.val = t.val / 16) (hJ : J.val = t.val / 4 % 4) :
    ((outsAt0 m c t.val t.isLt).1 : Vec Ideal S1024x1024 .f32)
      = fun j => Product.prod m c (ix2 (bpos I (j 0)) (bpos J (j 1))) := by
  have hN : cfg0.N = 64 := N_0
  obtain ⟨tv, ht⟩ := t
  have h3' : tv % 4 = 3 := h3
  have hI' : I.val = tv / 16 := hI
  have hJ' : J.val = tv / 4 % 4 := hJ
  obtain ⟨n, rfl⟩ : ∃ n, tv = n + 3 := ⟨tv - 3, by omega⟩
  funext j
  obtain ⟨p, q, rfl⟩ : ∃ (p q : Fin 1024), j = ix2 p q := ⟨j 0, j 1, eq_ix2 j⟩
  exact Product.group_entry m c n ht (by omega) I J (by omega) (by omega) p q

/-- What a flushing point writes back is its block of the product matrix. -/
theorem flushed_eq (c : Dev nD) (t : Fin cfg0.N) (hf : (cfg0.win 2).flush t = true) :
    (dats m 0 c).flushed 2 t = ((cfg0.win 2).blk t).view.read (Elt Ideal) (Product.prod m c) := by
  have hN : cfg0.N = 64 := N_0
  have ht : t.val < 64 := lt_of_lt_of_eq t.isLt hN
  have h3 : t.val % 4 = 3 := (flush0_2 t).mp hf
  obtain ⟨-, -, -, -, e4, e5⟩ := Blocks.idx_facts t
  show (cfg0.win 2).cut (grid0.coords t) ((dats m 0 c).after 2 t) = _
  rw [after0_2, last_block m c t h3 ⟨t.val / 16, by omega⟩ ⟨t.val / 4 % 4, by omega⟩ rfl rfl]
  funext j
  rw [View.read_apply]
  show Product.prod m c _ = Product.prod m c _
  congr 1
  funext a
  apply Fin.ext
  match a with
  | ⟨0, _⟩ => show t.val / 16 * 1024 + (j 0).val = win0_2.index t (0 : Fin 2) * 1024 + 1 * (j 0).val; rw [e4]; omega
  | ⟨1, _⟩ => show t.val / 4 % 4 * 1024 + (j 1).val = win0_2.index t (1 : Fin 2) * 1024 + 1 * (j 1).val; rw [e5]; omega

/-- An index of the array lies in point `t`'s block iff each coordinate lies in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v18).slice (win0_2.rect t)).set ↔ _
  rw [View.set_slice_whole, Rect.mem_set_unit]
  exact Iff.rfl

/-- Every entry (a, b) of the array is written back by the last point of the group of block (a / 1024, b / 1024). -/
theorem cover (i : S4096x4096.Idx) :
    ∃ t : Fin cfg0.N, (cfg0.win 2).flush t = true ∧ i ∈ ((cfg0.win 2).blk t).view.set := by
  have hN : cfg0.N = 64 := N_0
  have hi0 : (i 0).val < 4096 := (i 0).isLt
  have hi1 : (i 1).val < 4096 := (i 1).isLt
  obtain ⟨tv, htv⟩ : ∃ tv, tv = (i 0).val / 1024 * 16 + (i 1).val / 1024 * 4 + 3 := ⟨_, rfl⟩
  have hlt : tv < cfg0.N := by omega
  obtain ⟨-, -, -, -, e4, e5⟩ := Blocks.idx_facts ⟨tv, hlt⟩
  have e4' : win0_2.index ⟨tv, hlt⟩ (0 : Fin 2) = tv / 16 := e4
  have e5' : win0_2.index ⟨tv, hlt⟩ (1 : Fin 2) = tv / 4 % 4 := e5
  refine ⟨⟨tv, hlt⟩, (flush0_2 _).mpr (by show tv % 4 = 3; omega), ?_⟩
  rw [mem_blk]
  intro a
  match a with
  | ⟨0, _⟩ =>
    show win0_2.index ⟨tv, hlt⟩ (0 : Fin 2) * 1024 ≤ (i 0).val ∧ (i 0).val < win0_2.index ⟨tv, hlt⟩ (0 : Fin 2) * 1024 + 1024
    rw [e4']; omega
  | ⟨1, _⟩ =>
    show win0_2.index ⟨tv, hlt⟩ (1 : Fin 2) * 1024 ≤ (i 1).val ∧ (i 1).val < win0_2.index ⟨tv, hlt⟩ (1 : Fin 2) * 1024 + 1024
    rw [e5']; omega

/-- After the region the output array holds the product matrix. -/
theorem final (c : Dev nD) : (dats m 0 c).arrAt 2 cfg0.N = Product.prod m c :=
  (dats m 0 c).arrAt_eq_of_cover 2 (Product.prod m c) (flushed_eq m c) cover

/-- The program's result: the product matrix reshaped to [2, 2048, 4096]. -/
theorem tail_eq (c : Dev nD) : Pipeline.afterTail₀ cfgs (dats m) 0 (V0 m) [hostOps1] c main_v19
    = shapeCast S2x2048x4096 (Product.prod m c) shapeCasts_S4096x4096_S2x2048x4096 := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18)
      = Product.prod m c :=
    (Pipeline.withArrays_arr spec0 launch0.win.arr_inj c _ _ 2).trans (final m c)
  rw [e]
  rfl

/-- Entry (b, s, o) of the reshaped product matrix is the contraction of `x[b, s, ·]` with row `o` of the dense matrix. -/
theorem result_is_G (c : Dev nD) :
    shapeCast S2x2048x4096 (Product.prod m c) shapeCasts_S4096x4096_S2x2048x4096
      = Spec.G (m ((c : Thread nD τ).loc main_arg0)) (V m c main_v14) := by
  funext i
  obtain ⟨b, s, o, rfl⟩ : ∃ (b : Fin 2) (s : Fin 2048) (o : Fin 4096), i = ix3 b s o := ⟨i 0, i 1, i 2, eq_ix3 i⟩
  refine (shapeCast_apply _ _ _ (ix2 (Arrays.row b s) o) ?_).trans ?_
  · rw [Shape.rowMajor_val_two, Shape.rowMajor_val_three]
    show (b.val * 2048 + s.val) * 4096 + o.val = (b.val * 2048 + s.val) * 4096 + o.val
    rfl
  · exact Spec.G2_eq_G (m ((c : Thread nD τ).loc main_arg0)) (V m c main_v16) (V m c main_v17) (V m c main_v14)
      b s o (Arrays.row b s) (fun n => Arrays.lhs_apply m c b s n) (fun n => Arrays.rhs_apply m c (ix2 o n))

/-- The kernel program's run, read: every weakly fair execution terminates with the result array holding `G` of the
    activations and the dense matrix the host built, and the four argument arrays unchanged. -/
theorem run : θ_run defs (onTc (τ := τ) (main (F := Ideal))) ⟨m, fun _ => 0, ρ⟩ fun r => ∀ c : Dev nD,
      r.2.mem ((c.tc : Thread nD τ).loc main_v19) = Spec.G (m ((c.tc : Thread nD τ).loc main_arg0)) (V m c main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v19 (Pipeline.mem_restRefs_of main_v19 (by decide) (by decide))).trans (tail_eq m c)).trans (result_is_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference's result, on the extended reals.

  The reference builds the dense matrix W and contracts the last axis of x [2, 2048, 4096] with the second axis of
  W [4096, 4096] in one operation: entry (b, s, o) is ∑ₙ x[b, s, n] · W[o, n].
-/
import proofs.«158338_j3246995276086_1_alg».proof.Proof.Gen.ReferenceIdeal.Read
import proofs.«158338_j3246995276086_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The reference's last stage is the contraction `G` of its first argument with its dense matrix. -/
theorem result_is_G (x0 : (⟨S2x2048x4096, .f32⟩ : BufTy).Contents (Elt Ideal))
    (x1 : (⟨S1677722, .f32⟩ : BufTy).Contents (Elt Ideal)) (x2 x3 : (⟨S1677722, .i32⟩ : BufTy).Contents (Elt Ideal)) :
    val_main_v15 (F := Ideal) x0 x1 x2 x3 = Cert.Spec.G x0 (val_main_v14 (F := Ideal) x1 x2 x3) := by
  funext i
  rw [val_main_v15_apply]
  have el : ∀ k : Fin 4096, lidx_main_v15 i k = ix3 (i 0) (i 1) k := fun k =>
    funext fun a => Fin.ext (by match a with | ⟨0, _⟩ => rfl | ⟨1, _⟩ => rfl | ⟨2, _⟩ => rfl)
  have er : ∀ k : Fin 4096, ridx_main_v15 i k = ix2 (i 2) k := fun k =>
    funext fun a => Fin.ext (by match a with | ⟨0, _⟩ => rfl | ⟨1, _⟩ => rfl)
  simp only [el, er]
  rfl

end Cert.ReferenceIdeal.RefValue

end
-- ==== Proof.lean ====
/-
  The certificate's claim: the tiled matrix-product kernel against the einsum reference.

  Both programs first build the same dense 4096 × 4096 matrix W from the (value, row, column) triples by a
  scatter-add into zeros.  The reference then computes y[b, s, o] = ∑ₙ x[b, s, n] · W[o, n] in one contraction.  The
  kernel flattens x to a 4096 × 4096 matrix, converts both operands to bf16 (the identity on the extended reals),
  and computes the product block by block: a 4 × 4 × 4 grid, the innermost axis running over four blocks of the
  contracted axis whose partial products are accumulated, in order, onto a zero block and written back at the last
  step; the host reshapes the product back to [2, 2048, 4096].  Regrouping a sum of extended reals into four
  consecutive parts added onto zero does not change it (commutativity and associativity of addition, zero
  neutral), so the two results agree entry by entry, whatever the inputs: finiteness is never used.

  The three frames are the programs' runs with the results dropped; the kernel's idealization rewrote nothing.
-/
import proofs.«158338_j3246995276086_1_alg».proof.Defs
import proofs.«158338_j3246995276086_1_alg».proof.Proof.Gen.Kernel
import proofs.«158338_j3246995276086_1_alg».proof.Proof.Gen.Kernel.Skeleton
import proofs.«158338_j3246995276086_1_alg».proof.Proof.Gen.Kernel.Launch
import proofs.«158338_j3246995276086_1_alg».proof.Proof.Gen.Kernel.Points
import proofs.«158338_j3246995276086_1_alg».proof.Proof.Gen.Kernel.Frame
import proofs.«158338_j3246995276086_1_alg».proof.Proof.Gen.KernelIdeal
import proofs.«158338_j3246995276086_1_alg».proof.Proof.Gen.KernelIdeal.Skeleton
import proofs.«158338_j3246995276086_1_alg».proof.Proof.Gen.KernelIdeal.Launch
import proofs.«158338_j3246995276086_1_alg».proof.Proof.Gen.KernelIdeal.Points
import proofs.«158338_j3246995276086_1_alg».proof.Proof.Gen.KernelIdeal.Frame
import proofs.«158338_j3246995276086_1_alg».proof.Proof.Gen.ReferenceIdeal
import proofs.«158338_j3246995276086_1_alg».proof.Proof.Gen.Pre_finite_inputs
import proofs.«158338_j3246995276086_1_alg».proof.Proof.Gen.ReferenceIdeal.Run
import proofs.«158338_j3246995276086_1_alg».proof.Proof.Gen.ReferenceIdeal.Read
import proofs.«158338_j3246995276086_1_alg».proof.Proof.Result
import proofs.«158338_j3246995276086_1_alg».proof.Proof.Reference
import Idealize.ShloMosaic.Adequacy
import Idealize.ShloMosaic.Init

noncomputable section

namespace Cert.Proof

open Idealize.ShloMosaic Idealize.ShloMosaic.TcCoe Idealize.SL.Sem

/-- The kernel program, read at the word level, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at `G x W`: the kernel by regrouping the contraction into four blocks, the
    reference directly; the dense matrix `W` is one term of the same three arguments on both sides. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
    (Cert.KernelIdeal.Gen.V m c Cert.KernelIdeal.main_v14), Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_is_G,
    (hagree c).1, (hagree c).2.1, (hagree c).2.2.1, (hagree c).2.2.2]
  exact congrArg (Cert.Spec.G (m ((c.tc : Thread Cert.KernelIdeal.nD Cert.KernelIdeal.τ).loc Cert.KernelIdeal.main_arg0)))
    (Cert.KernelIdeal.Arrays.dense_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
